-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x320x512 : Shape := ⟨3, ![4, 320, 512]⟩
abbrev S4x80x512 : Shape := ⟨3, ![4, 80, 512]⟩
abbrev S512x1024 : Shape := ⟨2, ![512, 1024]⟩
abbrev S512 : Shape := ⟨1, ![512]⟩
abbrev S6x512 : Shape := ⟨2, ![6, 512]⟩
abbrev S6 : Shape := ⟨1, ![6]⟩
abbrev S50x512 : Shape := ⟨2, ![50, 512]⟩
abbrev S50 : Shape := ⟨1, ![50]⟩
abbrev S_ : Shape := ⟨0, ![]⟩

class Facts : Prop where
  bcast_S_S4x320x512 : S_.BroadcastsInDim S4x320x512 (![] : Fin 0 → Fin S4x320x512.rank)
  reducesTo_S4x320x512_S_d0_1_2 : S4x320x512.ReducesTo [0, 1, 2] S_
  h_S_ : 0 < S_.numel
  bcast_S_S4x80x512 : S_.BroadcastsInDim S4x80x512 (![] : Fin 0 → Fin S4x80x512.rank)
  reducesTo_S4x80x512_S_d0_1_2 : S4x80x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S6x512 : S_.BroadcastsInDim S6x512 (![] : Fin 0 → Fin S6x512.rank)
  reducesTo_S6x512_S_d0_1 : S6x512.ReducesTo [0, 1] S_
  bcast_S_S6 : S_.BroadcastsInDim S6 (![] : Fin 0 → Fin S6.rank)
  reducesTo_S6_S_d0 : S6.ReducesTo [0] S_
  bcast_S_S50x512 : S_.BroadcastsInDim S50x512 (![] : Fin 0 → Fin S50x512.rank)
  reducesTo_S50x512_S_d0_1 : S50x512.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg7 : FVec F S50 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  main_v38

def fn_part1 {F : FTy → Type} [FloatOps F] (main_arg4 : FVec F S6x512 .f32) (main_arg5 : FVec F S6 .f32) (main_arg6 : FVec F S50x512 .f32) (main_arg7 : FVec F S50 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S6x512 .f32 := Host.absf main_arg4
  let main_cst_6 : FVec F S_ .f32 := constant S_ .f32 0x7F800000#32
  let main_v20 : FVec F S6x512 .f32 := broadcastInDim S6x512 ![] bcast_S_S6x512 main_cst_6
  let main_v21 : IVec S6x512 1 := cmpf .olt main_v19 main_v20
  let main_c_7 : IVec S_ 1 := constantI S_ 1 1#1
  let main_v22 : IVec S_ 1 := (fun x v => Host.reduce IntOp.andi x v reducesTo_S6x512_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S50x512 .f32 := Host.absf main_arg6
  let main_cst_10 : FVec F S_ .f32 := constant S_ .f32 0x7F800000#32
  let main_v30 : FVec F S50x512 .f32 := broadcastInDim S50x512 ![] bcast_S_S50x512 main_cst_10
  let main_v31 : IVec S50x512 1 := cmpf .olt main_v29 main_v30
  let main_c_11 : IVec S_ 1 := constantI S_ 1 1#1
  let main_v32 : IVec S_ 1 := (fun x v => Host.reduce IntOp.andi x v reducesTo_S50x512_S_d0_1 h_S_) main_v31 main_c_11
  let main_v33 : IVec S_ 1 := andi main_v28 main_v32
  fn_part2 (F := F) main_arg7 main_v33

def fn {F : FTy → Type} [FloatOps F] (main_arg0 : FVec F S4x320x512 .f32) (main_arg1 : FVec F S4x80x512 .f32) (main_arg2 : FVec F S512x1024 .f32) (main_arg3 : FVec F S512 .f32) (main_arg4 : FVec F S6x512 .f32) (main_arg5 : FVec F S6 .f32) (main_arg6 : FVec F S50x512 .f32) (main_arg7 : FVec F S50 .f32) : IVec S_ 1 :=
  let main_v0 : FVec F S4x320x512 .f32 := Host.absf main_arg0
  let main_cst : FVec F S_ .f32 := constant S_ .f32 0x7F800000#32
  let main_v1 : FVec F S4x320x512 .f32 := broadcastInDim S4x320x512 ![] bcast_S_S4x320x512 main_cst
  let main_v2 : IVec S4x320x512 1 := cmpf .olt main_v0 main_v1
  let main_c : IVec S_ 1 := constantI S_ 1 1#1
  let main_v3 : IVec S_ 1 := (fun x v => Host.reduce IntOp.andi x v reducesTo_S4x320x512_S_d0_1_2 h_S_) main_v2 main_c
  let main_v4 : FVec F S4x80x512 .f32 := Host.absf main_arg1
  let main_cst_0 : FVec F S_ .f32 := constant S_ .f32 0x7F800000#32
  let main_v5 : FVec F S4x80x512 .f32 := broadcastInDim S4x80x512 ![] bcast_S_S4x80x512 main_cst_0
  let main_v6 : IVec S4x80x512 1 := cmpf .olt main_v4 main_v5
  let main_c_1 : IVec S_ 1 := constantI S_ 1 1#1
  let main_v7 : IVec S_ 1 := (fun x v => Host.reduce IntOp.andi x v reducesTo_S4x80x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x320x512 : Shape := ⟨3, ![4, 320, 512]⟩
abbrev S4x80x512 : Shape := ⟨3, ![4, 80, 512]⟩
abbrev S512x1024 : Shape := ⟨2, ![512, 1024]⟩
abbrev S512 : Shape := ⟨1, ![512]⟩
abbrev S6x512 : Shape := ⟨2, ![6, 512]⟩
abbrev S6 : Shape := ⟨1, ![6]⟩
abbrev S50x512 : Shape := ⟨2, ![50, 512]⟩
abbrev S50 : Shape := ⟨1, ![50]⟩
abbrev S512x512 : Shape := ⟨2, ![512, 512]⟩
abbrev S512x6 : Shape := ⟨2, ![512, 6]⟩
abbrev S512x50 : Shape := ⟨2, ![512, 50]⟩
abbrev S4x320x80x6 : Shape := ⟨4, ![4, 320, 80, 6]⟩
abbrev S4x320x80x50 : Shape := ⟨4, ![4, 320, 80, 50]⟩
abbrev S1x32x512 : Shape := ⟨3, ![1, 32, 512]⟩
abbrev S1x80x512 : Shape := ⟨3, ![1, 80, 512]⟩
abbrev S1x32x80x6 : Shape := ⟨4, ![1, 32, 80, 6]⟩
abbrev S1x32x80x50 : Shape := ⟨4, ![1, 32, 80, 50]⟩
abbrev S32x512 : Shape := ⟨2, ![32, 512]⟩
abbrev S80x512 : Shape := ⟨2, ![80, 512]⟩
abbrev S32x1x512 : Shape := ⟨3, ![32, 1, 512]⟩
abbrev S32x80x512 : Shape := ⟨3, ![32, 80, 512]⟩
abbrev S1x1x512 : Shape := ⟨3, ![1, 1, 512]⟩
abbrev S2560x512 : Shape := ⟨2, ![2560, 512]⟩
abbrev S2560x6 : Shape := ⟨2, ![2560, 6]⟩
abbrev S1x6 : Shape := ⟨2, ![1, 6]⟩
abbrev S32x80x6 : Shape := ⟨3, ![32, 80, 6]⟩
abbrev S2560x50 : Shape := ⟨2, ![2560, 50]⟩
abbrev S1x50 : Shape := ⟨2, ![1, 50]⟩
abbrev S32x80x50 : Shape := ⟨3, ![32, 80, 50]⟩

abbrev nBuf : Space → Nat
  | .hbm => 20
  | .vmem => 15
  | .smem => 0
  | _ => 0

abbrev bufTy : (tb : Table) → Fin (tcTables nBuf tb) → BufTy
  | .hbm, ⟨0, _⟩ => ⟨S4x320x512, .f32⟩
  | .hbm, ⟨1, _⟩ => ⟨S4x80x512, .f32⟩
  | .hbm, ⟨2, _⟩ => ⟨S512x1024, .f32⟩
  | .hbm, ⟨3, _⟩ => ⟨S512, .f32⟩
  | .hbm, ⟨4, _⟩ => ⟨S6x512, .f32⟩
  | .hbm, ⟨5, _⟩ => ⟨S6, .f32⟩
  | .hbm, ⟨6, _⟩ => ⟨S50x512, .f32⟩
  | .hbm, ⟨7, _⟩ => ⟨S50, .f32⟩
  | .hbm, ⟨8, _⟩ => ⟨S512x512, .f32⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x6, .f32⟩
  | .hbm, ⟨15, _⟩ => ⟨S512x6, .bf16⟩
  | .hbm, ⟨16, _⟩ => ⟨S512x50, .f32⟩
  | .hbm, ⟨17, _⟩ => ⟨S512x50, .bf16⟩
  | .hbm, ⟨18, _⟩ => ⟨S4x320x80x6, .f32⟩
  | .hbm, ⟨19, _⟩ => ⟨S4x320x80x50, .f32⟩
  | .local _ .vmem, ⟨0, _⟩ => ⟨S1x32x512, .f32⟩
  | .local _ .vmem, ⟨1, _⟩ => ⟨S1x32x512, .f32⟩
  | .local _ .vmem, ⟨2, _⟩ => ⟨S1x80x512, .f32⟩
  | .local _ .vmem, ⟨3, _⟩ => ⟨S1x80x512, .f32⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S512x6, .bf16⟩
  | .local _ .vmem, ⟨8, _⟩ => ⟨S6, .f32⟩
  | .local _ .vmem, ⟨9, _⟩ => ⟨S512x50, .bf16⟩
  | .local _ .vmem, ⟨10, _⟩ => ⟨S50, .f32⟩
  | .local _ .vmem, ⟨11, _⟩ => ⟨S1x32x80x6, .f32⟩
  | .local _ .vmem, ⟨12, _⟩ => ⟨S1x32x80x6, .f32⟩
  | .local _ .vmem, ⟨13, _⟩ => ⟨S1x32x80x50, .f32⟩
  | .local _ .vmem, ⟨14, _⟩ => ⟨S1x32x80x50, .f32⟩
  | _, _ => ⟨S4x320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x6 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x80x6 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x80x50 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  transposes_S6x512_S512x6_1_0 : S6x512.Transposes [1, 0] S512x6
  transposes_S50x512_S512x50_1_0 : S50x512.Transposes [1, 0] S512x50
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x80x512_S1x80x512_0_0_0 : ∀ a, (![0, 0, 0] : Fin 3 → Nat) a + S1x80x512.size a ≤ S1x80x512.size a
  h_S1x80x512 : 0 < S1x80x512.numel
  shapeCasts_S1x80x512_S80x512 : S1x80x512.ShapeCasts S80x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S32x512_S32x1x512 : S32x512.ShapeCasts S32x1x512
  shapeCasts_S80x512_S1x80x512 : S80x512.ShapeCasts S1x80x512
  broadcasts_S32x1x512_S32x80x512 : S32x1x512.Broadcasts S32x80x512
  broadcasts_S1x80x512_S32x80x512 : S1x80x512.Broadcasts S32x80x512
  shapeCasts_S512_S1x1x512 : S512.ShapeCasts S1x1x512
  broadcasts_S1x1x512_S32x80x512 : S1x1x512.Broadcasts S32x80x512
  shapeCasts_S32x80x512_S2560x512 : S32x80x512.ShapeCasts S2560x512
  inb_S512x6_S512x6_0_0 : ∀ a, (![0, 0] : Fin 2 → Nat) a + S512x6.size a ≤ S512x6.size a
  h_S512x6 : 0 < S512x6.numel
  shapeCasts_S512x6_S512x6 : S512x6.ShapeCasts S512x6
  inb_S6_S6_0 : ∀ a, (![0] : Fin 1 → Nat) a + S6.size a ≤ S6.size a
  h_S6 : 0 < S6.numel
  shapeCasts_S6_S1x6 : S6.ShapeCasts S1x6
  broadcasts_S1x6_S2560x6 : S1x6.Broadcasts S2560x6
  shapeCasts_S2560x6_S32x80x6 : S2560x6.ShapeCasts S32x80x6
  inb_S1x32x80x6_S1x32x80x6_0_0_0_0 : ∀ a, (![0, 0, 0, 0] : Fin 4 → Nat) a + S1x32x80x6.size a ≤ S1x32x80x6.size a
  h_S1x32x80x6 : 0 < S1x32x80x6.numel
  shapeCasts_S1x32x80x6_S32x80x6 : S1x32x80x6.ShapeCasts S32x80x6
  shapeCasts_S32x80x6_S1x32x80x6 : S32x80x6.ShapeCasts S1x32x80x6
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S50_S50_0 : ∀ a, (![0] : Fin 1 → Nat) a + S50.size a ≤ S50.size a
  h_S50 : 0 < S50.numel
  shapeCasts_S50_S1x50 : S50.ShapeCasts S1x50
  broadcasts_S1x50_S2560x50 : S1x50.Broadcasts S2560x50
  shapeCasts_S2560x50_S32x80x50 : S2560x50.ShapeCasts S32x80x50
  inb_S1x32x80x50_S1x32x80x50_0_0_0_0 : ∀ a, (![0, 0, 0, 0] : Fin 4 → Nat) a + S1x32x80x50.size a ≤ S1x32x80x50.size a
  h_S1x32x80x50 : 0 < S1x32x80x50.numel
  shapeCasts_S1x32x80x50_S32x80x50 : S1x32x80x50.ShapeCasts S32x80x50
  shapeCasts_S32x80x50_S1x32x80x50 : S32x80x50.ShapeCasts S1x32x80x50
  dot_S32x512_S512x512_S32x512_1_0_0_1_n_n_wf : DotDims.WF S32x512 S512x512 S32x512 [1] [0] [0] [1] [] []
  dot_S80x512_S512x512_S80x512_1_0_0_1_n_n_wf : DotDims.WF S80x512 S512x512 S80x512 [1] [0] [0] [1] [] []
  dot_S2560x512_S512x6_S2560x6_1_0_0_1_n_n_wf : DotDims.WF S2560x512 S512x6 S2560x6 [1] [0] [0] [1] [] []
  dot_S2560x512_S512x50_S2560x50_1_0_0_1_n_n_wf : DotDims.WF S2560x512 S512x50 S2560x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x320x512.size a
  hwx0_0 : ∀ i : grid0.Coords, EltTy.bits .f32 = 32 ∨ (Rect.block (s := S4x320x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x512.size a ≤ S4x80x512.size a
  hwx0_1 : ∀ i : grid0.Coords, EltTy.bits .f32 = 32 ∨ (Rect.block (s := S4x80x512) S1x80x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x6.size a ≤ S512x6.size a
  hwx0_5 : ∀ i : grid0.Coords, EltTy.bits .bf16 = 32 ∨ (Rect.block (s := S512x6) S512x6.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x50.size a ≤ S512x50.size a
  hwx0_7 : ∀ i : grid0.Coords, EltTy.bits .bf16 = 32 ∨ (Rect.block (s := S512x50) S512x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50.size a ≤ S50.size a
  hwx0_8 : ∀ i : grid0.Coords, EltTy.bits .f32 = 32 ∨ (Rect.block (s := S50) S50.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x80x6.size a ≤ S4x320x80x6.size a
  hwx0_9 : ∀ i : grid0.Coords, EltTy.bits .f32 = 32 ∨ (Rect.block (s := S4x320x80x6) S1x32x80x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x32x80x50.size a ≤ S4x320x80x50.size a
  hwx0_10 : ∀ i : grid0.Coords, EltTy.bits .f32 = 32 ∨ (Rect.block (s := S4x320x80x50) S1x32x80x50.size (cc0_transform_10 i) (hinb0_10 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S80x512_S512x512_S80x512_1_0_0_1_n_n : DotDims S80x512 S512x512 S80x512 where
  lhsContracting := [1]
  rhsContracting := [0]
  lhsNonContracting := [0]
  rhsNonContracting := [1]
  lhsBatch := []
  rhsBatch := []
  wf := dot_S80x512_S512x512_S80x512_1_0_0_1_n_n_wf
def dot_S2560x512_S512x6_S2560x6_1_0_0_1_n_n : DotDims S2560x512 S512x6 S2560x6 where
  lhsContracting := [1]
  rhsContracting := [0]
  lhsNonContracting := [0]
  rhsNonContracting := [1]
  lhsBatch := []
  rhsBatch := []
  wf := dot_S2560x512_S512x6_S2560x6_1_0_0_1_n_n_wf
def dot_S2560x512_S512x50_S2560x50_1_0_0_1_n_n : DotDims S2560x512 S512x50 S2560x50 where
  lhsContracting := [1]
  rhsContracting := [0]
  lhsNonContracting := [0]
  rhsNonContracting := [1]
  lhsBatch := []
  rhsBatch := []
  wf := dot_S2560x512_S512x50_S2560x50_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x80x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1x32x80x6.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1x32x80x50.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x320x512 : Shape := ⟨3, ![4, 320, 512]⟩
abbrev S4x80x512 : Shape := ⟨3, ![4, 80, 512]⟩
abbrev S512x1024 : Shape := ⟨2, ![512, 1024]⟩
abbrev S512 : Shape := ⟨1, ![512]⟩
abbrev S6x512 : Shape := ⟨2, ![6, 512]⟩
abbrev S6 : Shape := ⟨1, ![6]⟩
abbrev S50x512 : Shape := ⟨2, ![50, 512]⟩
abbrev S50 : Shape := ⟨1, ![50]⟩
abbrev S4x320x1x512 : Shape := ⟨4, ![4, 320, 1, 512]⟩
abbrev S4x320x80x512 : Shape := ⟨4, ![4, 320, 80, 512]⟩
abbrev S4x1x80x512 : Shape := ⟨4, ![4, 1, 80, 512]⟩
abbrev S4x320x80x1024 : Shape := ⟨4, ![4, 320, 80, 1024]⟩
abbrev S1x1x1x512 : Shape := ⟨4, ![1, 1, 1, 512]⟩
abbrev S4x320x80x6 : Shape := ⟨4, ![4, 320, 80, 6]⟩
abbrev S1x1x1x6 : Shape := ⟨4, ![1, 1, 1, 6]⟩
abbrev S4x320x80x50 : Shape := ⟨4, ![4, 320, 80, 50]⟩
abbrev S1x1x1x50 : Shape := ⟨4, ![1, 1, 1, 50]⟩

abbrev nBuf : Space → Nat
  | .hbm => 26
  | .vmem => 0
  | .smem => 0
  | _ => 0

abbrev bufTy : (tb : Table) → Fin (tcTables nBuf tb) → BufTy
  | .hbm, ⟨0, _⟩ => ⟨S4x320x512, .f32⟩
  | .hbm, ⟨1, _⟩ => ⟨S4x80x512, .f32⟩
  | .hbm, ⟨2, _⟩ => ⟨S512x1024, .f32⟩
  | .hbm, ⟨3, _⟩ => ⟨S512, .f32⟩
  | .hbm, ⟨4, _⟩ => ⟨S6x512, .f32⟩
  | .hbm, ⟨5, _⟩ => ⟨S6, .f32⟩
  | .hbm, ⟨6, _⟩ => ⟨S50x512, .f32⟩
  | .hbm, ⟨7, _⟩ => ⟨S50, .f32⟩
  | .hbm, ⟨8, _⟩ => ⟨S4x320x1x512, .f32⟩
  | .hbm, ⟨9, _⟩ => ⟨S4x320x80x512, .f32⟩
  | .hbm, ⟨10, _⟩ => ⟨S4x1x80x512, .f32⟩
  | .hbm, ⟨11, _⟩ => ⟨S4x320x80x512, .f32⟩
  | .hbm, ⟨12, _⟩ => ⟨S4x320x80x1024, .f32⟩
  | .hbm, ⟨13, _⟩ => ⟨S4x320x80x512, .f32⟩
  | .hbm, ⟨14, _⟩ => ⟨S1x1x1x512, .f32⟩
  | .hbm, ⟨15, _⟩ => ⟨S4x320x80x512, .f32⟩
  | .hbm, ⟨16, _⟩ => ⟨S4x320x80x512, .f32⟩
  | .hbm, ⟨17, _⟩ => ⟨S4x320x80x512, .f32⟩
  | .hbm, ⟨18, _⟩ => ⟨S4x320x80x6, .f32⟩
  | .hbm, ⟨19, _⟩ => ⟨S1x1x1x6, .f32⟩
  | .hbm, ⟨20, _⟩ => ⟨S4x320x80x6, .f32⟩
  | .hbm, ⟨21, _⟩ => ⟨S4x320x80x6, .f32⟩
  | .hbm, ⟨22, _⟩ => ⟨S4x320x80x50, .f32⟩
  | .hbm, ⟨23, _⟩ => ⟨S1x1x1x50, .f32⟩
  | .hbm, ⟨24, _⟩ => ⟨S4x320x80x50, .f32⟩
  | .hbm, ⟨25, _⟩ => ⟨S4x320x80x50, .f32⟩
  | _, _ => ⟨S4x320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S4x320x512_S4x320x1x512_0_1_3 : S4x320x512.BroadcastsInDim S4x320x1x512 (![0, 1, 3] : Fin 3 → Fin S4x320x1x512.rank)
  bcast_S4x320x1x512_S4x320x80x512_0_1_2_3 : S4x320x1x512.BroadcastsInDim S4x320x80x512 (![0, 1, 2, 3] : Fin 4 → Fin S4x320x80x512.rank)
  bcast_S4x80x512_S4x1x80x512_0_2_3 : S4x80x512.BroadcastsInDim S4x1x80x512 (![0, 2, 3] : Fin 3 → Fin S4x1x80x512.rank)
  bcast_S4x1x80x512_S4x320x80x512_0_1_2_3 : S4x1x80x512.BroadcastsInDim S4x320x80x512 (![0, 1, 2, 3] : Fin 4 → Fin S4x320x80x512.rank)
  concatenates_S4x320x80x512_S4x320x80x512_S4x320x80x1024_d3 : Shape.Concatenates [S4x320x80x512, S4x320x80x512] S4x320x80x1024 3
  bcast_S512_S1x1x1x512_3 : S512.BroadcastsInDim S1x1x1x512 (![3] : Fin 1 → Fin S1x1x1x512.rank)
  bcast_S1x1x1x512_S4x320x80x512_0_1_2_3 : S1x1x1x512.BroadcastsInDim S4x320x80x512 (![0, 1, 2, 3] : Fin 4 → Fin S4x320x80x512.rank)
  bcast_S6_S1x1x1x6_3 : S6.BroadcastsInDim S1x1x1x6 (![3] : Fin 1 → Fin S1x1x1x6.rank)
  bcast_S1x1x1x6_S4x320x80x6_0_1_2_3 : S1x1x1x6.BroadcastsInDim S4x320x80x6 (![0, 1, 2, 3] : Fin 4 → Fin S4x320x80x6.rank)
  bcast_S50_S1x1x1x50_3 : S50.BroadcastsInDim S1x1x1x50 (![3] : Fin 1 → Fin S1x1x1x50.rank)
  bcast_S1x1x1x50_S4x320x80x50_0_1_2_3 : S1x1x1x50.BroadcastsInDim S4x320x80x50 (![0, 1, 2, 3] : Fin 4 → Fin S4x320x80x50.rank)
  dot_S4x320x80x1024_S512x1024_S4x320x80x512_3_1_012_0_n_n_wf : DotDims.WF S4x320x80x1024 S512x1024 S4x320x80x512 [3] [1] [0, 1, 2] [0] [] []
  dot_S4x320x80x512_S6x512_S4x320x80x6_3_1_012_0_n_n_wf : DotDims.WF S4x320x80x512 S6x512 S4x320x80x6 [3] [1] [0, 1, 2] [0] [] []
  dot_S4x320x80x512_S50x512_S4x320x80x50_3_1_012_0_n_n_wf : DotDims.WF S4x320x80x512 S50x512 S4x320x80x50 [3] [1] [0, 1, 2] [0] [] []

variable [Facts₀]

def dot_S4x320x80x1024_S512x1024_S4x320x80x512_3_1_012_0_n_n : DotDims S4x320x80x1024 S512x1024 S4x320x80x512 where
  lhsContracting := [3]
  rhsContracting := [1]
  lhsNonContracting := [0, 1, 2]
  rhsNonContracting := [0]
  lhsBatch := []
  rhsBatch := []
  wf := dot_S4x320x80x1024_S512x1024_S4x320x80x512_3_1_012_0_n_n_wf
def dot_S4x320x80x512_S6x512_S4x320x80x6_3_1_012_0_n_n : DotDims S4x320x80x512 S6x512 S4x320x80x6 where
  lhsContracting := [3]
  rhsContracting := [1]
  lhsNonContracting := [0, 1, 2]
  rhsNonContracting := [0]
  lhsBatch := []
  rhsBatch := []
  wf := dot_S4x320x80x512_S6x512_S4x320x80x6_3_1_012_0_n_n_wf
def dot_S4x320x80x512_S50x512_S4x320x80x50_3_1_012_0_n_n : DotDims S4x320x80x512 S50x512 S4x320x80x50 where
  lhsContracting := [3]
  rhsContracting := [1]
  lhsNonContracting := [0, 1, 2]
  rhsNonContracting := [0]
  lhsBatch := []
  rhsBatch := []
  wf := dot_S4x320x80x512_S50x512_S4x320x80x50_3_1_012_0_n_n_wf

class Facts : Prop extends Facts₀ where

variable [Facts]
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibMidAxis.lean ====
/-
  Two layout operations read at an index given by coordinates, for a unit axis in the MIDDLE of a rank-3 shape: a
  matrix `[a, b]` cast to `[a, 1, b]` (each row kept as a one-row slab), and such a slab array `[a, 1, b]` broadcast
  along the unit axis to `[a, c, b]` (each row repeated `c` times). Both are instances of the general "layout operation
  read at an index" lemmas with the coordinates' arithmetic discharged, in the form the index library has for a
  leading unit axis.
-/
import Idealize.ShloMosaic.Lib.Pipeline.Value
import Idealize.ShloMosaic.Lib.ValueIdx

namespace Cert.MidAxis

open Idealize.ShloMosaic Idealize.ShloMosaic.ValueIdx

variable {α : Type}

/-- A matrix `[a, b]` cast to `[a, 1, b]` reads, at `(i, u, j)`, the operand at `(i, j)`, whatever the unit coordinate
    `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab array `[a, 1, b]` broadcast to `[a, c, b]` reads, at `(i, k, j)`, the slab of row `i` at `j`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidAxis
-- ==== Proof.LibTileLayout.lean ====
/-
  Layout operations of a tiled row space, read at an entry given by coordinates.

  A stack of `a` tiles of `b` rows of width `c` — an array `[a, b, c]` — flattened to `[a·b, c]` puts row `j` of
  tile `i` at row `i·b + j`, and the reshape back reads it there: both arrays list their entries in the same row-major
  order. A matrix `[a, b]` held as the one slab of `[1, a, b]` and broadcast along the leading axis to `[c, a, b]`
  reads the matrix at `(i, j)` whatever the leading coordinate. A vector `[b]` cast to `[1, 1, b]` and broadcast to
  `[a, c, b]` reads the vector at the last coordinate.
-/
import Idealize.ShloMosaic.Lib.Pipeline.Value
import Idealize.ShloMosaic.Lib.ValueIdx

namespace Cert.TileLayout

open Idealize.ShloMosaic Idealize.ShloMosaic.ValueIdx

variable {α : Type}

/-- `[a, b, c]` flattened to `[n, c]` (with `n = a·b`): row `r = i·b + j` at column `k` is the entry `(i, j, k)`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[n, c]` (with `n = a·b`) split into `[a, b, c]`: the entry `(i, j, k)` is row `r = i·b + j` at column `k`. -/
theorem unflatten_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- The slab array `[1, a, b]` broadcast to `[c, a, b]` reads, at `(k, i, j)`, the slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[b]` cast to `[1, 1, b]` reads, at `(u, w, j)`, the vector at `j`, whatever the unit coordinates. -/
theorem shapeCast_b_11b_apply {b : ℕ} (x : (⟨1, ![b]⟩ : Shape).Idx → α)
    (h : (⟨1, ![b]⟩ : Shape).ShapeCasts ⟨3, ![1, 1, b]⟩) (u w : Fin 1) (j : Fin b) :
    shapeCast ⟨3, ![1, 1, b]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * b + j.val
    simp [hu, hw])

/-- `[1, 1, b]` broadcast to `[a, c, b]` reads, at `(i, k, j)`, its one row at `j`. -/
theorem broadcastTo_11b_acb_apply {a c b : ℕ} (v : (⟨3, ![1, 1, b]⟩ : Shape).Idx → α)
    (h : (⟨3, ![1, 1, b]⟩ : Shape).Broadcasts ⟨3, ![a, c, b]⟩) (i : Fin a) (k : Fin c) (j : Fin b) :
    broadcastTo ⟨3, ![a, c, b]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Cert.TileLayout
-- ==== Proof.JointBody.lean ====
/-
  What one grid step of the kernel computes, entry by entry, over the extended reals.

  A step holds a tile of 32 encoder frames `x` (`[1, 32, 512]`), all 80 decoder steps `y` (`[1, 80, 512]`), the two
  halves `A`, `C` of the hidden layer's weights laid out `[512 inputs, 512 units]`, the hidden bias `β`, and each head's
  weights `[512 units, n outputs]` with its bias. It forms the two products `x·A` (`[32, 512]`) and `y·C` (`[80, 512]`),
  adds row `p` of the first to row `u` of the second and to the bias, applies tanh, and lays the 32 × 80 hidden vectors
  out as the rows of a `[2560, 512]` matrix, frame-major: the pair `(p, u)` is row `80 p + u`. Each head multiplies that
  matrix by its weights, adds its bias along the rows and folds the 2560 rows back into `[1, 32, 80, n]`.

  Rounding to the narrower float format before each product is the identity on the extended reals, the products
  accumulate into zero, and every reshape keeps the row-major order, so at `(p, u, i)` the hidden value is

      tanh ((Σ_k x (p, k) · A (k, i) + Σ_k y (u, k) · C (k, i)) + β i)

  and a head's value at `(p, u, v)` is `Σ_i hidden (80 p + u, i) · P (i, v) + q v`.
-/
import proofs.«127120_j25907242730051_1_alg».proof.Proof.Gen.KernelIdeal.Skeleton
import proofs.«127120_j25907242730051_1_alg».proof.Proof.LibPlainDot
import proofs.«127120_j25907242730051_1_alg».proof.Proof.LibMidAxis
import proofs.«127120_j25907242730051_1_alg».proof.Proof.LibTileLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The row of the flattened hidden matrix that holds frame `p` of the tile and decoder step `u`. -/
abbrev row (p : Fin 32) (u : Fin 80) : Fin 2560 := ⟨p.val * 80 + u.val, by have := p.isLt; have := u.isLt; omega⟩

/-- tanh of a vector is tanh of each entry. -/
theorem tanh_apply {s : Shape} {φ : FTy} (x : FVec Ideal s φ) (i : s.Idx) : tanh x i = Ideal.tanh (x i) := rfl

/-- The hidden layer's payload at row `80 p + u`, unit `i`. -/
theorem hidden_pay (x : FVec Ideal S1x32x512 .f32) (y : FVec Ideal S1x80x512 .f32) (A C : FVec Ideal S512x512 .bf16)
    (β : FVec Ideal S512 .f32) (p : Fin 32) (u : Fin 80) (i : Fin 512) :
    k0_pay2 (F := Ideal) x y A C β (ix2 (row p u) i)
      = Ideal.tanh ((∑ k : Fin 512, x (ix3 (0 : Fin 1) p k) * A (ix2 k i) + ∑ k : Fin 512, y (ix3 (0 : Fin 1) u k) * C (ix2 k i))
          + β (ix1 i)) := by
  unfold k0_pay2
  refine (truncf_apply (ψ := .bf16) _ bitsLt_bf16_f32 _).trans ?_
  refine (TileLayout.flatten_apply _ _ p u i (row p u) rfl).trans ?_
  refine (tanh_apply _ _).trans (congrArg Ideal.tanh ?_)
  refine (addf_apply _ _ _).trans (congrArg₂ (· + ·) ((addf_apply _ _ _).trans (congrArg₂ (· + ·) ?_ ?_)) ?_)
  · refine (MidAxis.broadcastTo_a1b_acb_apply _ _ p u i).trans ?_
    refine (MidAxis.shapeCast_ab_a1b_apply _ _ p (0 : Fin 1) i).trans ?_
    refine (PlainDot.matmul_zero_apply dot_S32x512_S512x512_S32x512_1_0_0_1_n_n rfl none _ _ p i).trans ?_
    refine Finset.sum_congr rfl fun k _ => congrArg₂ (· * ·) ?_ ?_
    · exact (truncf_apply (ψ := .bf16) _ bitsLt_bf16_f32 _).trans (shapeCast_1ab_ab_apply x _ p k)
    · exact congrFun (shapeCast_self A _) _
  · refine (TileLayout.broadcastTo_1ab_cab_apply _ _ p u i).trans ?_
    refine (shapeCast_ab_1ab_apply _ _ (0 : Fin 1) u i).trans ?_
    refine (PlainDot.matmul_zero_apply dot_S80x512_S512x512_S80x512_1_0_0_1_n_n rfl none _ _ u i).trans ?_
    refine Finset.sum_congr rfl fun k _ => congrArg₂ (· * ·) ?_ ?_
    · exact (truncf_apply (ψ := .bf16) _ bitsLt_bf16_f32 _).trans (shapeCast_1ab_ab_apply y _ u k)
    · exact congrFun (shapeCast_self C _) _
  · refine (TileLayout.broadcastTo_11b_acb_apply _ _ p u i).trans ?_
    exact TileLayout.shapeCast_b_11b_apply β _ (0 : Fin 1) (0 : Fin 1) i

/-- The six-output head's payload at `(p, u, v)`: row `80 p + u` of the hidden matrix against column `v` of the head's
    weights, plus the head's bias at `v`. -/
theorem base_pay (x : FVec Ideal S1x32x512 .f32) (y : FVec Ideal S1x80x512 .f32) (A C : FVec Ideal S512x512 .bf16)
    (β : FVec Ideal S512 .f32) (P : FVec Ideal S512x6 .bf16) (q : FVec Ideal S6 .f32)
    (w : Fin 1) (p : Fin 32) (u : Fin 80) (v : Fin 6) :
    k0_pay3 (F := Ideal) x y A C β P q (ix4 w p u v)
      = (∑ i : Fin 512, k0_pay2 (F := Ideal) x y A C β (ix2 (row p u) i) * P (ix2 i v)) + q (ix1 v) := by
  unfold k0_pay3
  refine (shapeCast_abc_1abc_apply _ _ w p u v).trans ?_
  refine (TileLayout.unflatten_apply _ _ p u v (row p u) rfl).trans ?_
  refine (addf_apply _ _ _).trans (congrArg₂ (· + ·) ?_ ?_)
  · refine (PlainDot.matmul_zero_apply dot_S2560x512_S512x6_S2560x6_1_0_0_1_n_n rfl none _ _ (row p u) v).trans ?_
    exact Finset.sum_congr rfl fun i _ => congrArg₂ (· * ·) rfl (congrFun (shapeCast_self P _) _)
  · refine (broadcastTo_1b_ab_apply _ _ (row p u) v).trans ?_
    exact shapeCast_a_1a_apply q _ (0 : Fin 1) v

/-- The fifty-output head's payload at `(p, u, v)`, over any hidden matrix `H`. -/
theorem rle_pay (H : FVec Ideal S2560x512 .bf16) (P : FVec Ideal S512x50 .bf16) (q : FVec Ideal S50 .f32)
    (w : Fin 1) (p : Fin 32) (u : Fin 80) (v : Fin 50) :
    k0_pay1 (F := Ideal) H P q (ix4 w p u v) = (∑ i : Fin 512, H (ix2 (row p u) i) * P (ix2 i v)) + q (ix1 v) := by
  unfold k0_pay1
  refine (shapeCast_abc_1abc_apply _ _ w p u v).trans ?_
  refine (TileLayout.unflatten_apply _ _ p u v (row p u) rfl).trans ?_
  refine (addf_apply _ _ _).trans (congrArg₂ (· + ·) ?_ ?_)
  · refine (PlainDot.matmul_zero_apply dot_S2560x512_S512x50_S2560x50_1_0_0_1_n_n rfl none _ _ (row p u) v).trans ?_
    exact Finset.sum_congr rfl fun i _ => congrArg₂ (· * ·) rfl (congrFun (shapeCast_self P _) _)
  · refine (broadcastTo_1b_ab_apply _ _ (row p u) v).trans ?_
    exact shapeCast_a_1a_apply q _ (0 : Fin 1) v

end Cert.KernelIdeal.Body

end
-- ==== Proof.JointSpec.lean ====
/-
  The joint network's two heads as functions of the eight argument arrays, entry by entry, over the extended reals.

  For a batch `b`, an encoder frame `t`, a decoder step `u` and a hidden unit `i` the hidden activation is

      hid (b, t, u, i) = tanh ((Σ_{k<512} enc (b, t, k) · W (i, k) + Σ_{k<512} dec (b, u, k) · W (i, 512 + k)) + bias i):

  the weight matrix `W` has 1024 columns and acts on the encoder state through its first 512 columns and on the decoder
  state through its last 512. Each head is an affine map of the hidden vector,

      head (b, t, u, v) = Σ_{i<512} hid (b, t, u, i) · P (v, i) + q v.

  Also here is the one law that joins the two ways of computing the pre-activation: a sum of 1024 terms is the sum of
  its first 512 terms plus the sum of its last 512. It holds in every commutative additive monoid, the extended reals
  among them, so nothing has to be finite.
-/
import Idealize.ShloMosaic.PureOps.Ideal
import Idealize.ShloMosaic.Lib.ValueIdx

noncomputable section

namespace Cert.Joint

open Idealize.ShloMosaic Idealize.ShloMosaic.ValueIdx

/-- Column `k` of the first half of a row of 1024 columns. -/
abbrev lo (k : Fin 512) : Fin 1024 := ⟨k.val, by omega⟩

/-- Column `512 + k`: column `k` of the second half. -/
abbrev hi (k : Fin 512) : Fin 1024 := ⟨512 + k.val, by omega⟩

/-- A sum over 1024 indices is the sum over the first 512 plus the sum over the last 512. -/
theorem sum_halves {M : Type*} [AddCommMonoid M] (f : Fin 1024 → M) :
    ∑ k : Fin 1024, f k = ∑ k : Fin 512, f (lo k) + ∑ k : Fin 512, f (hi k) :=
  Fin.sum_univ_add (a := 512) (b := 512) f

variable (enc : FVec Ideal ⟨3, ![4, 320, 512]⟩ .f32) (dec : FVec Ideal ⟨3, ![4, 80, 512]⟩ .f32)
  (W : FVec Ideal ⟨2, ![512, 1024]⟩ .f32) (bias : FVec Ideal ⟨1, ![512]⟩ .f32)

/-- The encoder's share of the pre-activation: row `(b, t)` of the encoder state against the first half of row `i` of `W`. -/
def encPart (b : Fin 4) (t : Fin 320) (i : Fin 512) : EReal := ∑ k : Fin 512, enc (ix3 b t k) * W (ix2 i (lo k))

/-- The decoder's share: row `(b, u)` of the decoder state against the second half of row `i` of `W`. -/
def decPart (b : Fin 4) (u : Fin 80) (i : Fin 512) : EReal := ∑ k : Fin 512, dec (ix3 b u k) * W (ix2 i (hi k))

/-- The hidden activation. -/
def hid (b : Fin 4) (t : Fin 320) (u : Fin 80) (i : Fin 512) : EReal :=
  Ideal.tanh ((encPart enc W b t i + decPart dec W b u i) + bias (ix1 i))

/-- One head at `(b, t, u, v)`: the hidden vector against row `v` of the head's matrix, plus the head's bias at `v`. -/
def headAt {n : ℕ} (P : FVec Ideal ⟨2, ![n, 512]⟩ .f32) (q : FVec Ideal ⟨1, ![n]⟩ .f32)
    (b : Fin 4) (t : Fin 320) (u : Fin 80) (v : Fin n) : EReal :=
  (∑ i : Fin 512, hid enc dec W bias b t u i * P (ix2 v i)) + q (ix1 v)

/-- The head with six outputs, as an array. -/
def base (P : FVec Ideal ⟨2, ![6, 512]⟩ .f32) (q : FVec Ideal ⟨1, ![6]⟩ .f32) : FVec Ideal ⟨4, ![4, 320, 80, 6]⟩ .f32 :=
  fun j => headAt enc dec W bias P q (j 0) (j 1) (j 2) (j 3)

/-- The head with fifty outputs, as an array. -/
def rle (P : FVec Ideal ⟨2, ![50, 512]⟩ .f32) (q : FVec Ideal ⟨1, ![50]⟩ .f32) : FVec Ideal ⟨4, ![4, 320, 80, 50]⟩ .f32 :=
  fun j => headAt enc dec W bias P q (j 0) (j 1) (j 2) (j 3)

theorem base_apply (P : FVec Ideal ⟨2, ![6, 512]⟩ .f32) (q : FVec Ideal ⟨1, ![6]⟩ .f32) (b : Fin 4) (t : Fin 320) (u : Fin 80) (v : Fin 6) :
    base enc dec W bias P q (ix4 b t u v) = headAt enc dec W bias P q b t u v := rfl

theorem rle_apply (P : FVec Ideal ⟨2, ![50, 512]⟩ .f32) (q : FVec Ideal ⟨1, ![50]⟩ .f32) (b : Fin 4) (t : Fin 320) (u : Fin 80) (v : Fin 50) :
    rle enc dec W bias P q (ix4 b t u v) = headAt enc dec W bias P q b t u v := rfl

end Cert.Joint

end
-- ==== Proof.JointPoint.lean ====
/-
  One grid step against the specification.

  The step at batch `b` and tile `s` loads frames `32 s … 32 s + 31` of batch `b` of the encoder state, all of batch `b`
  of the decoder state, the two halves of the hidden weights transposed (entry `(k, i)` of a half is entry
  `(i, k)`, respectively `(i, 512 + k)`, of the weight matrix), the hidden bias, and each head's weights transposed
  with its bias. Under exactly these hypotheses on the loaded blocks, what the step stores at `(p, u, v)` of a head's
  block is that head of the specification at `(b, 32 s + p, u, v)`.
-/
import proofs.«127120_j25907242730051_1_alg».proof.Proof.JointBody
import proofs.«127120_j25907242730051_1_alg».proof.Proof.JointSpec

noncomputable section

namespace Cert.KernelIdeal.Body

open Cert.KernelIdeal Cert.KernelIdeal.Gen Idealize.ShloMosaic Idealize.ShloMosaic.ValueIdx Cert.Joint

/-- Frame `p` of tile `s` is frame `32 s + p` of the sequence. -/
abbrev frame (s : Fin 10) (p : Fin 32) : Fin 320 := ⟨s.val * 32 + p.val, by have := s.isLt; have := p.isLt; omega⟩

variable (enc : FVec Ideal ⟨3, ![4, 320, 512]⟩ .f32) (dec : FVec Ideal ⟨3, ![4, 80, 512]⟩ .f32)
  (W : FVec Ideal ⟨2, ![512, 1024]⟩ .f32) (bias : FVec Ideal ⟨1, ![512]⟩ .f32)
  (x : FVec Ideal S1x32x512 .f32) (y : FVec Ideal S1x80x512 .f32) (A C : FVec Ideal S512x512 .bf16) (β : FVec Ideal S512 .f32)
  (b : Fin 4) (s : Fin 10)
  (hx : ∀ (p : Fin 32) (k : Fin 512), x (ix3 (0 : Fin 1) p k) = enc (ix3 b (frame s p) k))
  (hy : ∀ (u : Fin 80) (k : Fin 512), y (ix3 (0 : Fin 1) u k) = dec (ix3 b u k))
  (hA : ∀ k i : Fin 512, A (ix2 k i) = W (ix2 i (lo k)))
  (hC : ∀ k i : Fin 512, C (ix2 k i) = W (ix2 i (hi k)))
  (hβ : ∀ i : Fin 512, β (ix1 i) = bias (ix1 i))

include hx hy hA hC hβ

/-- The step's hidden matrix at row `80 p + u` is the hidden activation at `(b, 32 s + p, u)`. -/
theorem hidden_eq (p : Fin 32) (u : Fin 80) (i : Fin 512) :
    k0_pay2 (F := Ideal) x y A C β (ix2 (row p u) i) = hid enc dec W bias b (frame s p) u i := by
  rw [hidden_pay]
  unfold hid encPart decPart
  refine congrArg Ideal.tanh (congrArg₂ (· + ·) (congrArg₂ (· + ·) ?_ ?_) (hβ i))
  · exact Finset.sum_congr rfl fun k _ => by rw [hx, hA]
  · exact Finset.sum_congr rfl fun k _ => by rw [hy, hC]

/-- The six-output head's block. -/
theorem base_eq (P : FVec Ideal S512x6 .bf16) (q : FVec Ideal S6 .f32) (Wb : FVec Ideal ⟨2, ![6, 512]⟩ .f32)
    (bb : FVec Ideal ⟨1, ![6]⟩ .f32) (hP : ∀ (i : Fin 512) (v : Fin 6), P (ix2 i v) = Wb (ix2 v i))
    (hq : ∀ v : Fin 6, q (ix1 v) = bb (ix1 v)) (w : Fin 1) (p : Fin 32) (u : Fin 80) (v : Fin 6) :
    k0_pay3 (F := Ideal) x y A C β P q (ix4 w p u v) = base enc dec W bias Wb bb (ix4 b (frame s p) u v) := by
  rw [base_pay, base_apply]
  unfold headAt
  refine congrArg₂ (· + ·) (Finset.sum_congr rfl fun i _ => ?_) (hq v)
  rw [hidden_eq enc dec W bias x y A C β b s hx hy hA hC hβ p u i, hP]

/-- The fifty-output head's block. -/
theorem rle_eq (P : FVec Ideal S512x50 .bf16) (q : FVec Ideal S50 .f32) (Wr : FVec Ideal ⟨2, ![50, 512]⟩ .f32)
    (br : FVec Ideal ⟨1, ![50]⟩ .f32) (hP : ∀ (i : Fin 512) (v : Fin 50), P (ix2 i v) = Wr (ix2 v i))
    (hq : ∀ v : Fin 50, q (ix1 v) = br (ix1 v)) (w : Fin 1) (p : Fin 32) (u : Fin 80) (v : Fin 50) :
    k0_pay1 (F := Ideal) (k0_pay2 (F := Ideal) x y A C β) P q (ix4 w p u v) = rle enc dec W bias Wr br (ix4 b (frame s p) u v) := by
  rw [rle_pay, rle_apply]
  unfold headAt
  refine congrArg₂ (· + ·) (Finset.sum_congr rfl fun i _ => ?_) (hq v)
  rw [hidden_eq enc dec W bias x y A C β b s hx hy hA hC hβ p u i, hP]

end Cert.KernelIdeal.Body

end
-- ==== Proof.JointHost.lean ====
/-
  The weight arrays as the kernel's grid finds them.

  Before the grid starts, the program cuts the hidden weight matrix `W` (`[512 units, 1024 inputs]`) into its first and
  its last 512 columns, transposes each half and rounds it to the narrower float format; it transposes and rounds each
  head's weight matrix the same way. On the extended reals rounding changes nothing, so entry `(k, i)` of the first
  half is `W (i, k)`, of the second `W (i, 512 + k)`, and entry `(i, v)` of a head's array is the head's matrix at
  `(v, i)`.
-/
import proofs.«127120_j25907242730051_1_alg».proof.Proof.Gen.KernelIdeal.Frame
import proofs.«127120_j25907242730051_1_alg».proof.Proof.JointSpec
import Idealize.ShloMosaic.Lib.StableHlo.Run
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Cert.Joint

variable (m : (ℓ : Loc nD τ sig) → Buf (Elt Ideal) ℓ)

/-- The first half of the hidden weights, transposed. -/
theorem wEnc_eq (c : Dev nD) : (V m c main_v2 : S512x512.Idx → EReal)
    = truncf (F := Ideal) .bf16 (transpose S512x512 [1, 0] (extractStridedSlice S512x512 ![0, 0]
        (m ((c : Thread nD τ).loc main_arg2) : S512x1024.Idx → EReal) slices_S512x1024_S512x512_0_0)
        transposes_S512x512_S512x512_1_0) bitsLt_bf16_f32 := by
  dsimp only [Gen.V, Gen.hostOps0]; after_results

/-- The second half of the hidden weights, transposed. -/
theorem wDec_eq (c : Dev nD) : (V m c main_v5 : S512x512.Idx → EReal)
    = truncf (F := Ideal) .bf16 (transpose S512x512 [1, 0] (extractStridedSlice S512x512 ![0, 512]
        (m ((c : Thread nD τ).loc main_arg2) : S512x1024.Idx → EReal) slices_S512x1024_S512x512_0_512)
        transposes_S512x512_S512x512_1_0) bitsLt_bf16_f32 := by
  dsimp only [Gen.V, Gen.hostOps0]; after_results

/-- The six-output head's weights, transposed. -/
theorem wBase_eq (c : Dev nD) : (V m c main_v7 : S512x6.Idx → EReal)
    = truncf (F := Ideal) .bf16 (transpose S512x6 [1, 0] (m ((c : Thread nD τ).loc main_arg4) : S6x512.Idx → EReal)
        transposes_S6x512_S512x6_1_0) bitsLt_bf16_f32 := by
  dsimp only [Gen.V, Gen.hostOps0]; after_results

/-- The fifty-output head's weights, transposed. -/
theorem wRle_eq (c : Dev nD) : (V m c main_v9 : S512x50.Idx → EReal)
    = truncf (F := Ideal) .bf16 (transpose S512x50 [1, 0] (m ((c : Thread nD τ).loc main_arg6) : S50x512.Idx → EReal)
        transposes_S50x512_S512x50_1_0) bitsLt_bf16_f32 := by
  dsimp only [Gen.V, Gen.hostOps0]; after_results

/-- Entry `(k, i)` of the first half is `W (i, k)`. -/
theorem wEnc_apply (c : Dev nD) (k i : Fin 512) :
    (V m c main_v2 : S512x512.Idx → EReal) (ix2 k i) = (m ((c : Thread nD τ).loc main_arg2) : S512x1024.Idx → EReal) (ix2 i (lo k)) := by
  rw [wEnc_eq]
  refine (truncf_apply (ψ := .bf16) _ bitsLt_bf16_f32 _).trans ?_
  refine (transpose_ix2_apply _ _ k i).trans ?_
  exact slice2_axis1_apply 0 _ _ i k (lo k) (Nat.zero_add _).symm

/-- Entry `(k, i)` of the second half is `W (i, 512 + k)`. -/
theorem wDec_apply (c : Dev nD) (k i : Fin 512) :
    (V m c main_v5 : S512x512.Idx → EReal) (ix2 k i) = (m ((c : Thread nD τ).loc main_arg2) : S512x1024.Idx → EReal) (ix2 i (hi k)) := by
  rw [wDec_eq]
  refine (truncf_apply (ψ := .bf16) _ bitsLt_bf16_f32 _).trans ?_
  refine (transpose_ix2_apply _ _ k i).trans ?_
  exact slice2_axis1_apply 512 _ _ i k (hi k) rfl

/-- Entry `(i, v)` of the six-output head's array is the head's matrix at `(v, i)`. -/
theorem wBase_apply (c : Dev nD) (i : Fin 512) (v : Fin 6) :
    (V m c main_v7 : S512x6.Idx → EReal) (ix2 i v) = (m ((c : Thread nD τ).loc main_arg4) : S6x512.Idx → EReal) (ix2 v i) := by
  rw [wBase_eq]
  refine (truncf_apply (ψ := .bf16) _ bitsLt_bf16_f32 _).trans ?_
  exact transpose_ix2_apply _ _ i v

/-- Entry `(i, v)` of the fifty-output head's array is the head's matrix at `(v, i)`. -/
theorem wRle_apply (c : Dev nD) (i : Fin 512) (v : Fin 50) :
    (V m c main_v9 : S512x50.Idx → EReal) (ix2 i v) = (m ((c : Thread nD τ).loc main_arg6) : S50x512.Idx → EReal) (ix2 v i) := by
  rw [wRle_eq]
  refine (truncf_apply (ψ := .bf16) _ bitsLt_bf16_f32 _).trans ?_
  exact transpose_ix2_apply _ _ i v

end Cert.KernelIdeal.Hand

end
-- ==== Proof.JointBlocks.lean ====
/-
  From the grid's blocks to the two result arrays.

  The grid has 4 × 10 points; the point `(b, s)` works on batch `b` and on frames `32 s … 32 s + 31`. Its encoder
  block is rows `32 s …` of batch `b` of the encoder state, its decoder block all of batch `b` of the decoder state;
  the weight and bias windows are whole arrays, the same at every point. Each result window's block at the point is
  `[1, 32, 80, n]` at block index `(b, s, 0, 0)`: entry `(0, p, u, v)` of the block is entry `(b, 32 s + p, u, v)` of
  the result array. So what the point writes back is that block of the specification's head, the 40 blocks tile the
  result array, and after the run each result array is the head.
-/
import proofs.«127120_j25907242730051_1_alg».proof.Proof.Gen.KernelIdeal.Frame
import proofs.«127120_j25907242730051_1_alg».proof.Proof.Gen.KernelIdeal.Value
import proofs.«127120_j25907242730051_1_alg».proof.Proof.JointPoint
import proofs.«127120_j25907242730051_1_alg».proof.Proof.JointHost
import Idealize.ShloMosaic.Lib.Pipeline.Value

noncomputable section

namespace Cert.KernelIdeal.Hand

open Cert.KernelIdeal Cert.KernelIdeal.Gen Cert.KernelIdeal.Value Cert.KernelIdeal.Body
open Idealize.ShloMosaic Idealize.ShloMosaic.TcCoe Idealize.SL.Sem Idealize.ShloMosaic.ValueIdx Cert.Joint
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The argument arrays and the two heads of them -/

abbrev aEnc (c : Dev nD) : S4x320x512.Idx → EReal := m ((c : Thread nD τ).loc main_arg0)
abbrev aDec (c : Dev nD) : S4x80x512.Idx → EReal := m ((c : Thread nD τ).loc main_arg1)
abbrev aW (c : Dev nD) : S512x1024.Idx → EReal := m ((c : Thread nD τ).loc main_arg2)
abbrev aBias (c : Dev nD) : S512.Idx → EReal := m ((c : Thread nD τ).loc main_arg3)
abbrev aWb (c : Dev nD) : S6x512.Idx → EReal := m ((c : Thread nD τ).loc main_arg4)
abbrev aBb (c : Dev nD) : S6.Idx → EReal := m ((c : Thread nD τ).loc main_arg5)
abbrev aWr (c : Dev nD) : S50x512.Idx → EReal := m ((c : Thread nD τ).loc main_arg6)
abbrev aBr (c : Dev nD) : S50.Idx → EReal := m ((c : Thread nD τ).loc main_arg7)

/-- The six-output head of the argument arrays. -/
abbrev headBase (c : Dev nD) : S4x320x80x6.Idx → EReal :=
  base (aEnc m c) (aDec m c) (aW m c) (aBias m c) (aWb m c) (aBb m c)

/-- The fifty-output head of the argument arrays. -/
abbrev headRle (c : Dev nD) : S4x320x80x50.Idx → EReal :=
  rle (aEnc m c) (aDec m c) (aW m c) (aBias m c) (aWr m c) (aBr m c)

/-! ## The index maps, decided over the 40 points -/

/-- The encoder window moves with the result windows on the batch and tile axes; the decoder window on the batch axis. -/
theorem idx_state : ∀ t : Fin cfg0.N,
    win0_0.index t (0 : Fin 3) = win0_9.index t (0 : Fin 4) ∧ win0_0.index t (1 : Fin 3) = win0_9.index t (1 : Fin 4)
    ∧ win0_0.index t (2 : Fin 3) = 0
    ∧ win0_1.index t (0 : Fin 3) = win0_9.index t (0 : Fin 4) ∧ win0_1.index t (1 : Fin 3) = 0 ∧ win0_1.index t (2 : Fin 3) = 0 :=
  (by decide +kernel : ∀ t : Fin grid0.N, _)

/-- The weight and bias windows stay at block index zero. -/
theorem idx_whole : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 1) = 0 ∧ win0_5.index t (0 : Fin 2) = 0 ∧ win0_5.index t (1 : Fin 2) = 0
    ∧ win0_6.index t (0 : Fin 1) = 0 ∧ win0_7.index t (0 : Fin 2) = 0 ∧ win0_7.index t (1 : Fin 2) = 0
    ∧ win0_8.index t (0 : Fin 1) = 0 :=
  (by decide +kernel : ∀ t : Fin grid0.N, _)

/-- The result windows' block index is `(b, s, 0, 0)` with `b < 4`, `s < 10`, the same for both. -/
theorem idx_out : ∀ t : Fin cfg0.N,
    win0_9.index t (0 : Fin 4) < 4 ∧ win0_9.index t (1 : Fin 4) < 10 ∧ win0_9.index t (2 : Fin 4) = 0 ∧ win0_9.index t (3 : Fin 4) = 0
    ∧ win0_10.index t (0 : Fin 4) = win0_9.index t (0 : Fin 4) ∧ win0_10.index t (1 : Fin 4) = win0_9.index t (1 : Fin 4)
    ∧ win0_10.index t (2 : Fin 4) = 0 ∧ win0_10.index t (3 : Fin 4) = 0 :=
  (by decide +kernel : ∀ t : Fin grid0.N, _)

/-- Every pair `(b, s)` is some point's. -/
theorem idx_onto : ∀ (q0 : Fin 4) (q1 : Fin 10), ∃ t : Fin cfg0.N, win0_9.index t = ![q0.val, q1.val, 0, 0] :=
  (by decide +kernel : ∀ (q0 : Fin 4) (q1 : Fin 10), ∃ t : Fin grid0.N, win0_9.index t = ![q0.val, q1.val, 0, 0])

/-! ## Each input window's block at a point -/

/-- The encoder block: frame `p` of the tile is frame `32 s + p` of batch `b`. -/
theorem enc_blk (c : Dev nD) (t : Fin cfg0.N) (b : Fin 4) (s : Fin 10) (hb : win0_0.index t (0 : Fin 3) = b.val)
    (hs : win0_0.index t (1 : Fin 3) = s.val) (h0 : win0_0.index t (2 : Fin 3) = 0) (p : Fin 32) (k : Fin 512) :
    (iblk m c 0 t : S1x32x512.Idx → EReal) (ix3 (0 : Fin 1) p k) = aEnc m c (ix3 b (frame s p) k) := by
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 32 + 1 * p.val = s.val * 32 + p.val; omega
  | ⟨2, _⟩ => show win0_0.index t (2 : Fin 3) * 512 + 1 * k.val = k.val; omega

/-- The decoder block: all of batch `b`. -/
theorem dec_blk (c : Dev nD) (t : Fin cfg0.N) (b : Fin 4) (hb : win0_1.index t (0 : Fin 3) = b.val)
    (h1 : win0_1.index t (1 : Fin 3) = 0) (h2 : win0_1.index t (2 : Fin 3) = 0) (u : Fin 80) (k : Fin 512) :
    (iblk m c 1 t : S1x80x512.Idx → EReal) (ix3 (0 : Fin 1) u k) = aDec m c (ix3 b u k) := by
  show V m c main_arg1 (((cfg0.win 1).blk t).view.emb (ix3 (0 : Fin 1) u k)) = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 80 + 1 * u.val = u.val; omega
  | ⟨2, _⟩ => show win0_1.index t (2 : Fin 3) * 512 + 1 * k.val = k.val; omega

/-- The first half of the hidden weights. -/
theorem wEnc_blk (c : Dev nD) (t : Fin cfg0.N) (h0 : win0_2.index t (0 : Fin 2) = 0) (h1 : win0_2.index t (1 : Fin 2) = 0)
    (k i : Fin 512) : (iblk m c 2 t : S512x512.Idx → EReal) (ix2 k i) = aW m c (ix2 i (lo k)) := by
  refine Eq.trans ?_ (wEnc_apply m c k i)
  show V m c main_v2 (((cfg0.win 2).blk t).view.emb (ix2 k i)) = V m c main_v2 (ix2 k i)
  refine congrArg _ (funext fun a => Fin.ext ?_)
  match a with
  | ⟨0, _⟩ => show win0_2.index t (0 : Fin 2) * 512 + 1 * k.val = k.val; omega
  | ⟨1, _⟩ => show win0_2.index t (1 : Fin 2) * 512 + 1 * i.val = i.val; omega

/-- The second half of the hidden weights. -/
theorem wDec_blk (c : Dev nD) (t : Fin cfg0.N) (h0 : win0_3.index t (0 : Fin 2) = 0) (h1 : win0_3.index t (1 : Fin 2) = 0)
    (k i : Fin 512) : (iblk m c 3 t : S512x512.Idx → EReal) (ix2 k i) = aW m c (ix2 i (hi k)) := by
  refine Eq.trans ?_ (wDec_apply m c k i)
  show V m c main_v5 (((cfg0.win 3).blk t).view.emb (ix2 k i)) = V m c main_v5 (ix2 k i)
  refine congrArg _ (funext fun a => Fin.ext ?_)
  match a with
  | ⟨0, _⟩ => show win0_3.index t (0 : Fin 2) * 512 + 1 * k.val = k.val; omega
  | ⟨1, _⟩ => show win0_3.index t (1 : Fin 2) * 512 + 1 * i.val = i.val; omega

/-- The hidden bias. -/
theorem bias_blk (c : Dev nD) (t : Fin cfg0.N) (h0 : win0_4.index t (0 : Fin 1) = 0) (i : Fin 512) :
    (iblk m c 4 t : S512.Idx → EReal) (ix1 i) = aBias m c (ix1 i) := by
  show V m c main_arg3 (((cfg0.win 4).blk t).view.emb (ix1 i)) = _
  rw [V_main_arg3]
  refine congrArg _ (funext fun a => Fin.ext ?_)
  match a with
  | ⟨0, _⟩ => show win0_4.index t (0 : Fin 1) * 512 + 1 * i.val = i.val; omega

/-- The six-output head's weights. -/
theorem wBase_blk (c : Dev nD) (t : Fin cfg0.N) (h0 : win0_5.index t (0 : Fin 2) = 0) (h1 : win0_5.index t (1 : Fin 2) = 0)
    (i : Fin 512) (v : Fin 6) : (iblk m c 5 t : S512x6.Idx → EReal) (ix2 i v) = aWb m c (ix2 v i) := by
  refine Eq.trans ?_ (wBase_apply m c i v)
  show V m c main_v7 (((cfg0.win 5).blk t).view.emb (ix2 i v)) = V m c main_v7 (ix2 i v)
  refine congrArg _ (funext fun a => Fin.ext ?_)
  match a with
  | ⟨0, _⟩ => show win0_5.index t (0 : Fin 2) * 512 + 1 * i.val = i.val; omega
  | ⟨1, _⟩ => show win0_5.index t (1 : Fin 2) * 6 + 1 * v.val = v.val; omega

/-- The six-output head's bias. -/
theorem bBase_blk (c : Dev nD) (t : Fin cfg0.N) (h0 : win0_6.index t (0 : Fin 1) = 0) (v : Fin 6) :
    (iblk m c 6 t : S6.Idx → EReal) (ix1 v) = aBb m c (ix1 v) := by
  show V m c main_arg5 (((cfg0.win 6).blk t).view.emb (ix1 v)) = _
  rw [V_main_arg5]
  refine congrArg _ (funext fun a => Fin.ext ?_)
  match a with
  | ⟨0, _⟩ => show win0_6.index t (0 : Fin 1) * 6 + 1 * v.val = v.val; omega

/-- The fifty-output head's weights. -/
theorem wRle_blk (c : Dev nD) (t : Fin cfg0.N) (h0 : win0_7.index t (0 : Fin 2) = 0) (h1 : win0_7.index t (1 : Fin 2) = 0)
    (i : Fin 512) (v : Fin 50) : (iblk m c 7 t : S512x50.Idx → EReal) (ix2 i v) = aWr m c (ix2 v i) := by
  refine Eq.trans ?_ (wRle_apply m c i v)
  show V m c main_v9 (((cfg0.win 7).blk t).view.emb (ix2 i v)) = V m c main_v9 (ix2 i v)
  refine congrArg _ (funext fun a => Fin.ext ?_)
  match a with
  | ⟨0, _⟩ => show win0_7.index t (0 : Fin 2) * 512 + 1 * i.val = i.val; omega
  | ⟨1, _⟩ => show win0_7.index t (1 : Fin 2) * 50 + 1 * v.val = v.val; omega

/-- The fifty-output head's bias. -/
theorem bRle_blk (c : Dev nD) (t : Fin cfg0.N) (h0 : win0_8.index t (0 : Fin 1) = 0) (v : Fin 50) :
    (iblk m c 8 t : S50.Idx → EReal) (ix1 v) = aBr m c (ix1 v) := by
  show V m c main_arg7 (((cfg0.win 8).blk t).view.emb (ix1 v)) = _
  rw [V_main_arg7]
  refine congrArg _ (funext fun a => Fin.ext ?_)
  match a with
  | ⟨0, _⟩ => show win0_8.index t (0 : Fin 1) * 50 + 1 * v.val = v.val; omega

/-! ## What each point writes back -/

/-- The six-output head's window: the point writes back its block of the head. -/
theorem flushedBase_eq (c : Dev nD) (t : Fin cfg0.N) :
    (dats m 0 c).flushed 9 t = ((cfg0.win 9).blk t).view.read (Elt Ideal) (headBase m c) := by
  obtain ⟨e00, e01, e02, e10, e11, e12⟩ := idx_state t
  obtain ⟨z20, z21, z30, z31, z40, z50, z51, z60, z70, z71, z80⟩ := idx_whole t
  obtain ⟨hb, hs, o2, o3, -, -, -, -⟩ := idx_out t
  rw [flushed9]
  unfold out0_9
  rw [View.canon_unit_zero hz4]
  simp only [View.ld_unit_zero (S := S1x32x512) hz3, View.ld_unit_zero (S := S1x80x512) hz3,
    View.ld_unit_zero (S := S512x512) hz2, View.ld_unit_zero (S := S512) hz1, View.ld_unit_zero (S := S512x6) hz2,
    View.ld_unit_zero (S := S6) hz1]
  funext y
  obtain ⟨w, p, u, v, rfl⟩ : ∃ (w : Fin 1) (p : Fin 32) (u : Fin 80) (v : Fin 6), y = ix4 w p u v :=
    ⟨y 0, y 1, y 2, y 3, eq_ix4 y⟩
  show k0_pay3 (F := Ideal) (iblk m c 0 t) (iblk m c 1 t) (iblk m c 2 t) (iblk m c 3 t) (iblk m c 4 t) (iblk m c 5 t)
      (iblk m c 6 t) (ix4 w p u v) = headBase m c (((cfg0.win 9).blk t).view.emb (ix4 w p u v))
  refine (Body.base_eq (aEnc m c) (aDec m c) (aW m c) (aBias m c) (iblk m c 0 t) (iblk m c 1 t) (iblk m c 2 t)
    (iblk m c 3 t) (iblk m c 4 t) ⟨win0_9.index t (0 : Fin 4), hb⟩ ⟨win0_9.index t (1 : Fin 4), hs⟩
    (enc_blk m c t _ _ e00 e01 e02) (dec_blk m c t _ e10 e11 e12) (wEnc_blk m c t z20 z21) (wDec_blk m c t z30 z31)
    (bias_blk m c t z40) (iblk m c 5 t) (iblk m c 6 t) (aWb m c) (aBb m c) (wBase_blk m c t z50 z51) (bBase_blk m c t z60)
    w p u v).trans ?_
  refine congrArg _ (funext fun a => Fin.ext ?_)
  have hw : w.val = 0 := by omega
  match a with
  | ⟨0, _⟩ => show win0_9.index t (0 : Fin 4) = win0_9.index t (0 : Fin 4) * 1 + 1 * w.val; omega
  | ⟨1, _⟩ => show win0_9.index t (1 : Fin 4) * 32 + p.val = win0_9.index t (1 : Fin 4) * 32 + 1 * p.val; omega
  | ⟨2, _⟩ => show u.val = win0_9.index t (2 : Fin 4) * 80 + 1 * u.val; omega
  | ⟨3, _⟩ => show v.val = win0_9.index t (3 : Fin 4) * 6 + 1 * v.val; omega

/-- The fifty-output head's window: the point writes back its block of the head. -/
theorem flushedRle_eq (c : Dev nD) (t : Fin cfg0.N) :
    (dats m 0 c).flushed 10 t = ((cfg0.win 10).blk t).view.read (Elt Ideal) (headRle m c) := by
  obtain ⟨e00, e01, e02, e10, e11, e12⟩ := idx_state t
  obtain ⟨z20, z21, z30, z31, z40, z50, z51, z60, z70, z71, z80⟩ := idx_whole t
  obtain ⟨hb, hs, -, -, r0, r1, r2, r3⟩ := idx_out t
  rw [flushed10]
  unfold out0_10
  rw [View.canon_unit_zero hz4]
  simp only [View.ld_unit_zero (S := S1x32x512) hz3, View.ld_unit_zero (S := S1x80x512) hz3,
    View.ld_unit_zero (S := S512x512) hz2, View.ld_unit_zero (S := S512) hz1, View.ld_unit_zero (S := S512x50) hz2,
    View.ld_unit_zero (S := S50) hz1]
  funext y
  obtain ⟨w, p, u, v, rfl⟩ : ∃ (w : Fin 1) (p : Fin 32) (u : Fin 80) (v : Fin 50), y = ix4 w p u v :=
    ⟨y 0, y 1, y 2, y 3, eq_ix4 y⟩
  show k0_pay1 (F := Ideal) (k0_pay2 (F := Ideal) (iblk m c 0 t) (iblk m c 1 t) (iblk m c 2 t) (iblk m c 3 t) (iblk m c 4 t))
      (iblk m c 7 t) (iblk m c 8 t) (ix4 w p u v) = headRle m c (((cfg0.win 10).blk t).view.emb (ix4 w p u v))
  refine (Body.rle_eq (aEnc m c) (aDec m c) (aW m c) (aBias m c) (iblk m c 0 t) (iblk m c 1 t) (iblk m c 2 t)
    (iblk m c 3 t) (iblk m c 4 t) ⟨win0_9.index t (0 : Fin 4), hb⟩ ⟨win0_9.index t (1 : Fin 4), hs⟩
    (enc_blk m c t _ _ e00 e01 e02) (dec_blk m c t _ e10 e11 e12) (wEnc_blk m c t z20 z21) (wDec_blk m c t z30 z31)
    (bias_blk m c t z40) (iblk m c 7 t) (iblk m c 8 t) (aWr m c) (aBr m c) (wRle_blk m c t z70 z71) (bRle_blk m c t z80)
    w p u v).trans ?_
  refine congrArg _ (funext fun a => Fin.ext ?_)
  have hw : w.val = 0 := by omega
  match a with
  | ⟨0, _⟩ => show win0_9.index t (0 : Fin 4) = win0_10.index t (0 : Fin 4) * 1 + 1 * w.val; omega
  | ⟨1, _⟩ => show win0_9.index t (1 : Fin 4) * 32 + p.val = win0_10.index t (1 : Fin 4) * 32 + 1 * p.val; omega
  | ⟨2, _⟩ => show u.val = win0_10.index t (2 : Fin 4) * 80 + 1 * u.val; omega
  | ⟨3, _⟩ => show v.val = win0_10.index t (3 : Fin 4) * 50 + 1 * v.val; omega

/-! ## The blocks tile each result array -/

/-- An index of the first result array is in the point's block iff each coordinate is in the block's range. -/
theorem mem_blkBase (t : Fin cfg0.N) (i : S4x320x80x6.Idx) :
    i ∈ ((cfg0.win 9).blk t).view.set ↔ ∀ a : Fin 4, win0_9.index t a * S1x32x80x6.size a ≤ (i a).val
      ∧ (i a).val < win0_9.index t a * S1x32x80x6.size a + S1x32x80x6.size a := by
  show i ∈ ((View.whole main_v10_0).slice (win0_9.rect t)).set ↔ _
  rw [View.set_slice_whole, Rect.mem_set_unit]
  exact Iff.rfl

/-- The same for the second result array. -/
theorem mem_blkRle (t : Fin cfg0.N) (i : S4x320x80x50.Idx) :
    i ∈ ((cfg0.win 10).blk t).view.set ↔ ∀ a : Fin 4, win0_10.index t a * S1x32x80x50.size a ≤ (i a).val
      ∧ (i a).val < win0_10.index t a * S1x32x80x50.size a + S1x32x80x50.size a := by
  show i ∈ ((View.whole main_v10_1).slice (win0_10.rect t)).set ↔ _
  rw [View.set_slice_whole, Rect.mem_set_unit]
  exact Iff.rfl

/-- Entry `(b, f, u, v)` of the first result array is in the block of the point `(b, f / 32)`. -/
theorem coverBase (i : S4x320x80x6.Idx) :
    ∃ t : Fin cfg0.N, (cfg0.win 9).flush t = true ∧ i ∈ ((cfg0.win 9).blk t).view.set := by
  have h0 : (i 0).val < 4 := (i 0).isLt
  have h1 : (i 1).val < 320 := (i 1).isLt
  have h2 : (i 2).val < 80 := (i 2).isLt
  have h3 : (i 3).val < 6 := (i 3).isLt
  obtain ⟨t, ht⟩ := idx_onto ⟨(i 0).val, h0⟩ ⟨(i 1).val / 32, by omega⟩
  have q0 : win0_9.index t (0 : Fin 4) = (i 0).val := congrFun ht 0
  have q1 : win0_9.index t (1 : Fin 4) = (i 1).val / 32 := congrFun ht 1
  have q2 : win0_9.index t (2 : Fin 4) = 0 := congrFun ht 2
  have q3 : win0_9.index t (3 : Fin 4) = 0 := congrFun ht 3
  refine ⟨t, flush0_9 t, ?_⟩
  rw [mem_blkBase]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 32 ≤ (i 1).val ∧ (i 1).val < win0_9.index t (1 : Fin 4) * 32 + 32; omega
  | ⟨2, _⟩ => show win0_9.index t (2 : Fin 4) * 80 ≤ (i 2).val ∧ (i 2).val < win0_9.index t (2 : Fin 4) * 80 + 80; omega
  | ⟨3, _⟩ => show win0_9.index t (3 : Fin 4) * 6 ≤ (i 3).val ∧ (i 3).val < win0_9.index t (3 : Fin 4) * 6 + 6; omega

/-- The same for the second result array. -/
theorem coverRle (i : S4x320x80x50.Idx) :
    ∃ t : Fin cfg0.N, (cfg0.win 10).flush t = true ∧ i ∈ ((cfg0.win 10).blk t).view.set := by
  have h0 : (i 0).val < 4 := (i 0).isLt
  have h1 : (i 1).val < 320 := (i 1).isLt
  have h2 : (i 2).val < 80 := (i 2).isLt
  have h3 : (i 3).val < 50 := (i 3).isLt
  obtain ⟨t, ht⟩ := idx_onto ⟨(i 0).val, h0⟩ ⟨(i 1).val / 32, by omega⟩
  have q0 : win0_9.index t (0 : Fin 4) = (i 0).val := congrFun ht 0
  have q1 : win0_9.index t (1 : Fin 4) = (i 1).val / 32 := congrFun ht 1
  obtain ⟨-, -, -, -, r0, r1, r2, r3⟩ := idx_out t
  refine ⟨t, flush0_10 t, ?_⟩
  rw [mem_blkRle]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 32 ≤ (i 1).val ∧ (i 1).val < win0_10.index t (1 : Fin 4) * 32 + 32; omega
  | ⟨2, _⟩ => show win0_10.index t (2 : Fin 4) * 80 ≤ (i 2).val ∧ (i 2).val < win0_10.index t (2 : Fin 4) * 80 + 80; omega
  | ⟨3, _⟩ => show win0_10.index t (3 : Fin 4) * 50 ≤ (i 3).val ∧ (i 3).val < win0_10.index t (3 : Fin 4) * 50 + 50; omega

/-! ## The result arrays after the run -/

/-- The first result array ends holding the six-output head. -/
theorem finalBase (c : Dev nD) : (dats m 0 c).arrAt 9 cfg0.N = headBase m c :=
  (dats m 0 c).arrAt_eq_of_cover 9 (headBase m c) (fun t _ => flushedBase_eq m c t) coverBase

/-- The second result array ends holding the fifty-output head. -/
theorem finalRle (c : Dev nD) : (dats m 0 c).arrAt 10 cfg0.N = headRle m c :=
  (dats m 0 c).arrAt_eq_of_cover 10 (headRle m c) (fun t _ => flushedRle_eq m c t) coverRle

/-- Every weakly fair execution of the kernel's program ends with the two result arrays at the two heads of the
    argument arrays, the arguments unchanged. -/
theorem run : θ_run defs (onTc (τ := τ) (main (F := Ideal))) ⟨m, fun _ => 0, ρ⟩ fun r => ∀ c : Dev nD,
      r.2.mem ((c : Thread nD τ).loc main_v10_0) = headBase m c
      ∧ r.2.mem ((c : Thread nD τ).loc main_v10_1) = headRle m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (finalBase m c), (h c).2.1.trans (finalRle m c), (h c).2.2⟩)
    (Value.run_blocks m ρ)

end Cert.KernelIdeal.Hand

end
-- ==== Proof.JointRef.lean ====
/-
  The reference computes the specification.

  The reference repeats each encoder frame over the 80 decoder steps and each decoder step over the 320 frames, joins
  the two along the last axis into a state of 1024 columns, and contracts that with the 1024 columns of the hidden
  weights. Column `k < 512` of the joined state at `(b, t, u)` is the encoder state at `(b, t, k)`, and column `512 + k`
  is the decoder state at `(b, u, k)`; so, splitting the sum of 1024 products into its two halves, the contraction is the
  encoder's share plus the decoder's share. The bias, tanh and the two heads are then the specification's, term by term.
-/
import proofs.«127120_j25907242730051_1_alg».proof.Proof.Gen.ReferenceIdeal.Read
import proofs.«127120_j25907242730051_1_alg».proof.Proof.JointSpec
import Idealize.ShloMosaic.Lib.Pipeline.Value
import Idealize.ShloMosaic.Lib.ValueIdx

noncomputable section

namespace Cert.ReferenceIdeal.Hand

open Cert.ReferenceIdeal Cert.ReferenceIdeal.Read Idealize.ShloMosaic Idealize.ShloMosaic.ValueIdx Cert.Joint

variable (x0 : FVec Ideal S4x320x512 .f32) (x1 : FVec Ideal S4x80x512 .f32) (x2 : FVec Ideal S512x1024 .f32)
  (x3 : FVec Ideal S512 .f32)

/-- In its first 512 columns the joined state is the encoder state, whatever the decoder step. -/
theorem joined_lo (b : Fin 4) (t : Fin 320) (u : Fin 80) (k : Fin 512) :
    val_main_v4 (F := Ideal) x0 x1 (ix4 b t u (lo k)) = x0 (ix3 b t k) := by
  unfold val_main_v4
  refine (concatenate_pair_apply_left (t := S4x320x80x1024) (s₁ := S4x320x80x512) (s₂ := S4x320x80x512) 3 _ _ _
    (ix4 b t u (lo k)) rfl (ix4 b t u k) (fun a => ?_)).trans ?_
  · match a with
    | ⟨0, _⟩ => rfl
    | ⟨1, _⟩ => rfl
    | ⟨2, _⟩ => rfl
    | ⟨3, _⟩ => rfl
  · rw [val_main_v1_apply, val_main_v0_apply]
    exact congrArg x0 (funext fun a => Fin.ext (by
      match a with
      | ⟨0, _⟩ => rfl
      | ⟨1, _⟩ => rfl
      | ⟨2, _⟩ => rfl))

/-- In its last 512 columns the joined state is the decoder state, whatever the encoder frame. -/
theorem joined_hi (b : Fin 4) (t : Fin 320) (u : Fin 80) (k : Fin 512) :
    val_main_v4 (F := Ideal) x0 x1 (ix4 b t u (hi k)) = x1 (ix3 b u k) := by
  unfold val_main_v4
  refine (concatenate_pair_apply_right (t := S4x320x80x1024) (s₁ := S4x320x80x512) (s₂ := S4x320x80x512) 3 _ _ _
    (ix4 b t u (hi k)) rfl rfl (ix4 b t u k) (fun a ha => ?_) ?_).trans ?_
  · match a with
    | ⟨0, _⟩ => rfl
    | ⟨1, _⟩ => rfl
    | ⟨2, _⟩ => rfl
    | ⟨3, _⟩ => exact absurd rfl ha
  · show k.val + 512 = 512 + k.val
    omega
  · rw [val_main_v3_apply, val_main_v2_apply]
    exact congrArg x1 (funext fun a => Fin.ext (by
      match a with
      | ⟨0, _⟩ => rfl
      | ⟨1, _⟩ => rfl
      | ⟨2, _⟩ => rfl))

/-- The hidden contraction reads the joined state at `(b, t, u, k)` … -/
theorem joined_idx (b : Fin 4) (t : Fin 320) (u : Fin 80) (j : Fin 512) (k : Fin 1024) :
    lidx_main_v5 (ix4 b t u j) k = ix4 b t u k :=
  funext fun a => Fin.ext (by
    match a with
    | ⟨0, _⟩ => rfl
    | ⟨1, _⟩ => rfl
    | ⟨2, _⟩ => rfl
    | ⟨3, _⟩ => rfl)

/-- … against the weights at `(j, k)`. -/
theorem weight_idx (b : Fin 4) (t : Fin 320) (u : Fin 80) (j : Fin 512) (k : Fin 1024) :
    ridx_main_v5 (ix4 b t u j) k = ix2 j k :=
  funext fun a => Fin.ext (by
    match a with
    | ⟨0, _⟩ => rfl
    | ⟨1, _⟩ => rfl)

/-- The reference's pre-activation is the encoder's share plus the decoder's share plus the bias. -/
theorem pre_apply (b : Fin 4) (t : Fin 320) (u : Fin 80) (j : Fin 512) :
    val_main_v8 (F := Ideal) x0 x1 x2 x3 (ix4 b t u j) = (encPart x0 x2 b t j + decPart x1 x2 b u j) + x3 (ix1 j) := by
  rw [val_main_v8_apply, val_main_v5_apply, val_main_v7_apply, val_main_v6_apply, sum_halves, Ideal.addf_def]
  refine congrArg₂ (· + ·) (congrArg₂ (· + ·) ?_ ?_) ?_
  · unfold encPart
    refine Finset.sum_congr rfl fun k _ => ?_
    rw [joined_idx, weight_idx, joined_lo]
  · unfold decPart
    refine Finset.sum_congr rfl fun k _ => ?_
    rw [joined_idx, weight_idx, joined_hi]
  · exact congrArg x3 (funext fun a => Fin.ext (by
      match a with
      | ⟨0, _⟩ => rfl))

/-- The reference's hidden activation is the specification's. -/
theorem hid_apply (b : Fin 4) (t : Fin 320) (u : Fin 80) (j : Fin 512) :
    val_main_v9 (F := Ideal) x0 x1 x2 x3 (ix4 b t u j) = hid x0 x1 x2 x3 b t u j := by
  rw [val_main_v9_apply, pre_apply]
  rfl

/-- The reference's first result is the six-output head. -/
theorem base_eq (x4 : FVec Ideal S6x512 .f32) (x5 : FVec Ideal S6 .f32) :
    val_main_v13 (F := Ideal) x0 x1 x2 x3 x4 x5 = base x0 x1 x2 x3 x4 x5 := by
  funext i
  obtain ⟨b, t, u, v, rfl⟩ : ∃ (b : Fin 4) (t : Fin 320) (u : Fin 80) (v : Fin 6), i = ix4 b t u v := ⟨i 0, i 1, i 2, i 3, eq_ix4 i⟩
  rw [val_main_v13_apply, val_main_v10_apply, val_main_v12_apply, val_main_v11_apply, Ideal.addf_def, base_apply]
  unfold headAt
  refine congrArg₂ (· + ·) (Finset.sum_congr rfl fun k _ => ?_) ?_
  · have e1 : lidx_main_v10 (ix4 b t u v) k = ix4 b t u k := funext fun a => Fin.ext (by
      match a with
      | ⟨0, _⟩ => rfl
      | ⟨1, _⟩ => rfl
      | ⟨2, _⟩ => rfl
      | ⟨3, _⟩ => rfl)
    have e2 : ridx_main_v10 (ix4 b t u v) k = ix2 v k := funext fun a => Fin.ext (by
      match a with
      | ⟨0, _⟩ => rfl
      | ⟨1, _⟩ => rfl)
    rw [e1, e2, hid_apply]
  · exact congrArg x5 (funext fun a => Fin.ext (by
      match a with
      | ⟨0, _⟩ => rfl))

/-- The reference's second result is the fifty-output head. -/
theorem rle_eq (x6 : FVec Ideal S50x512 .f32) (x7 : FVec Ideal S50 .f32) :
    val_main_v17 (F := Ideal) x0 x1 x2 x3 x6 x7 = rle x0 x1 x2 x3 x6 x7 := by
  funext i
  obtain ⟨b, t, u, v, rfl⟩ : ∃ (b : Fin 4) (t : Fin 320) (u : Fin 80) (v : Fin 50), i = ix4 b t u v := ⟨i 0, i 1, i 2, i 3, eq_ix4 i⟩
  rw [val_main_v17_apply, val_main_v14_apply, val_main_v16_apply, val_main_v15_apply, Ideal.addf_def, rle_apply]
  unfold headAt
  refine congrArg₂ (· + ·) (Finset.sum_congr rfl fun k _ => ?_) ?_
  · have e1 : lidx_main_v14 (ix4 b t u v) k = ix4 b t u k := funext fun a => Fin.ext (by
      match a with
      | ⟨0, _⟩ => rfl
      | ⟨1, _⟩ => rfl
      | ⟨2, _⟩ => rfl
      | ⟨3, _⟩ => rfl)
    have e2 : ridx_main_v14 (ix4 b t u v) k = ix2 v k := funext fun a => Fin.ext (by
      match a with
      | ⟨0, _⟩ => rfl
      | ⟨1, _⟩ => rfl)
    rw [e1, e2, hid_apply]
  · exact congrArg x7 (funext fun a => Fin.ext (by
      match a with
      | ⟨0, _⟩ => rfl))

end Cert.ReferenceIdeal.Hand

end
-- ==== Proof.lean ====
/-
  The joint network kernel against its reference: both compute, for every batch `b`, encoder frame `t` and decoder
  step `u`, the hidden vector

      h (b, t, u, ·) = tanh (W · [enc (b, t, ·) ; dec (b, u, ·)] + bias)

  and two affine heads of it, one with six outputs and one with fifty.

  The reference builds the joined state `[enc ; dec]` of 1024 columns for every `(b, t, u)` and contracts it with the
  1024 columns of `W`. The kernel never builds it: before its grid starts it cuts `W` into its first and last 512
  columns, and each grid step multiplies a tile of 32 encoder frames by the first half and the 80 decoder steps by the
  second half, adds the two products row against row and adds the bias, applies tanh, and multiplies the 2560 hidden
  rows of the tile by each head's weights. Over the extended reals the two agree entry by entry: a sum of 1024
  products is the sum of its first 512 and of its last 512, which holds in every commutative monoid, so no entry has
  to be finite and the precondition is never opened; rounding to a narrower float format is the identity there; tanh
  is one function on both sides; and the heads are the same sums.

  The modules: JointSpec (the two heads as functions of the argument arrays, and the law of the two halves), JointRef
  (the reference's results are those heads), JointBody and JointPoint (what one grid step stores, entry by entry, is
  the step's block of the heads), JointHost (the weight arrays as the grid finds them), JointBlocks (the 40 blocks
  tile the result arrays, so the kernel's results are those heads). The idealized kernel is the kernel's own text
  read over the extended reals: nothing was rewritten, so there is nothing to preserve beyond that.
-/
import proofs.«127120_j25907242730051_1_alg».proof.Defs
import proofs.«127120_j25907242730051_1_alg».proof.Proof.Gen.Kernel
import proofs.«127120_j25907242730051_1_alg».proof.Proof.Gen.Kernel.Frame
import proofs.«127120_j25907242730051_1_alg».proof.Proof.Gen.KernelIdeal
import proofs.«127120_j25907242730051_1_alg».proof.Proof.Gen.KernelIdeal.Frame
import proofs.«127120_j25907242730051_1_alg».proof.Proof.Gen.KernelIdeal.Value
import proofs.«127120_j25907242730051_1_alg».proof.Proof.Gen.ReferenceIdeal
import proofs.«127120_j25907242730051_1_alg».proof.Proof.Gen.ReferenceIdeal.Run
import proofs.«127120_j25907242730051_1_alg».proof.Proof.Gen.ReferenceIdeal.Read
import proofs.«127120_j25907242730051_1_alg».proof.Proof.Gen.Pre_finite_inputs
import proofs.«127120_j25907242730051_1_alg».proof.Proof.JointBlocks
import proofs.«127120_j25907242730051_1_alg».proof.Proof.JointRef
import Idealize.ShloMosaic.Adequacy
import Idealize.ShloMosaic.Init

noncomputable section

namespace Cert.Proof

open Idealize.ShloMosaic Idealize.SL.Sem

/-- The kernel's program, word by word: every execution ends, nothing faults, the arguments are kept. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference: its run, with what it says about the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing of the kernel was rewritten on the way to the extended reals. -/
theorem preserves : Cert.preserves_Kernel_KernelIdeal := trivial

/-- From memories that agree on the eight arguments, the kernel's two result arrays and the reference's are the two
    heads of those arguments: the kernel's by its run block by block, the reference's by its run read one operation
    at a time. -/
theorem algebraic : Cert.algebraic_KernelIdeal_ReferenceIdeal := by
  intro m ρ m' ρ' _ hagree
  refine ⟨fun c => Cert.KernelIdeal.Hand.headBase m c, fun c => Cert.KernelIdeal.Hand.headRle m c,
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, -, -⟩ := hagree c
    rw [a0, a1, a2, a3, a4, a5]
    exact (Cert.ReferenceIdeal.Read.val_main_v13_eq _ _ _ _ _ _).trans (Cert.ReferenceIdeal.Hand.base_eq _ _ _ _ _ _)
  · obtain ⟨a0, a1, a2, a3, -, -, a6, a7⟩ := hagree c
    rw [a0, a1, a2, a3, a6, a7]
    exact (Cert.ReferenceIdeal.Read.val_main_v17_eq _ _ _ _ _ _).trans (Cert.ReferenceIdeal.Hand.rle_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
